-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S_ : Shape := ⟨0, ![]⟩

class Facts : Prop where
  bcast_S_S2x256x8192 : S_.BroadcastsInDim S2x256x8192 (![] : Fin 0 → Fin S2x256x8192.rank)
  reducesTo_S2x256x8192_S_d0_1_2 : S2x256x8192.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S2x256x8192 .f32) (main_arg1 : FVec F S8192x8192 .f32) (main_arg2 : FVec F S8192x1024 .f32) (main_arg3 : FVec F S1024 .f32) (main_arg4 : FVec F S8192x1024 .f32) : IVec S_ 1 :=
  let main_v0 : FVec F S2x256x8192 .f32 := Host.absf main_arg0
  let main_cst : FVec F S_ .f32 := constant S_ .f32 0x7F800000#32
  let main_v1 : FVec F S2x256x8192 .f32 := broadcastInDim S2x256x8192 ![] bcast_S_S2x256x8192 main_cst
  let main_v2 : IVec S2x256x8192 1 := cmpf .olt main_v0 main_v1
  let main_c : IVec S_ 1 := constantI S_ 1 1#1
  let main_v3 : IVec S_ 1 := (fun x v => Host.reduce IntOp.andi x v reducesTo_S2x256x8192_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S512x8192 : Shape := ⟨2, ![512, 8192]⟩
abbrev S512x1024 : Shape := ⟨2, ![512, 1024]⟩
abbrev S1x1024 : Shape := ⟨2, ![1, 1024]⟩
abbrev S1024x512 : Shape := ⟨2, ![1024, 512]⟩
abbrev S1024x1024 : Shape := ⟨2, ![1024, 1024]⟩
abbrev S512x512 : Shape := ⟨2, ![512, 512]⟩

abbrev nBuf : Space → Nat
  | .hbm => 16
  | .vmem => 9
  | .smem => 0
  | _ => 0

abbrev bufTy : (tb : Table) → Fin (tcTables nBuf tb) → BufTy
  | .hbm, ⟨0, _⟩ => ⟨S2x256x8192, .f32⟩
  | .hbm, ⟨1, _⟩ => ⟨S8192x8192, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S512x8192, .f32⟩
  | .hbm, ⟨6, _⟩ => ⟨S512x8192, .bf16⟩
  | .hbm, ⟨7, _⟩ => ⟨S8192x1024, .bf16⟩
  | .hbm, ⟨8, _⟩ => ⟨S8192x1024, .bf16⟩
  | .hbm, ⟨9, _⟩ => ⟨S512x1024, .f32⟩
  | .hbm, ⟨10, _⟩ => ⟨S1x1024, .f32⟩
  | .hbm, ⟨11, _⟩ => ⟨S512x1024, .f32⟩
  | .hbm, ⟨12, _⟩ => ⟨S512x1024, .f32⟩
  | .hbm, ⟨13, _⟩ => ⟨S512x1024, .bf16⟩
  | .hbm, ⟨14, _⟩ => ⟨S512x8192, .f32⟩
  | .hbm, ⟨15, _⟩ => ⟨S2x256x8192, .f32⟩
  | .local _ .vmem, ⟨0, _⟩ => ⟨S512x8192, .bf16⟩
  | .local _ .vmem, ⟨1, _⟩ => ⟨S1024x512, .f32⟩
  | .local _ .vmem, ⟨2, _⟩ => ⟨S1024x512, .f32⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S2x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x256x8192_S512x8192 : S2x256x8192.ShapeCasts S512x8192
  bitsLt_bf16_f32 : FTy.bits .bf16 < FTy.bits .f32
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  shapeCasts_S512x8192_S2x256x8192 : S512x8192.ShapeCasts S2x256x8192
  dot_S512x8192_S8192x1024_S512x1024_1_0_0_1_n_n_wf : DotDims.WF S512x8192 S8192x1024 S512x1024 [1] [0] [0] [1] [] []
  dot_S512x512_S512x1024_S512x1024_1_0_0_1_n_n_wf : DotDims.WF S512x512 S512x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S512x512.size a ≤ S512x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x8192.size a
  hwx0_0 : ∀ i : grid0.Coords, EltTy.bits .bf16 = 32 ∨ (Rect.block (s := S512x8192) S512x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x8192.size a
  hwx0_1 : ∀ i : grid0.Coords, EltTy.bits .f32 = 32 ∨ (Rect.block (s := S8192x8192) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x8192.size a
  hwx0_4 : ∀ i : grid0.Coords, EltTy.bits .f32 = 32 ∨ (Rect.block (s := S512x8192) S512x1024.size (cc0_transform_4 i) (hinb0_4 i)).WholeWords (EltTy.packing .f32)

variable [Facts₀]

def dot_S512x8192_S8192x1024_S512x1024_1_0_0_1_n_n : DotDims S512x8192 S8192x1024 S512x1024 where
  lhsContracting := [1]
  rhsContracting := [0]
  lhsNonContracting := [0]
  rhsNonContracting := [1]
  lhsBatch := []
  rhsBatch := []
  wf := dot_S512x8192_S8192x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x256x8192 : Shape := ⟨3, ![2, 256, 8192]⟩
abbrev S8192x8192 : Shape := ⟨2, ![8192, 8192]⟩
abbrev S8192x1024 : Shape := ⟨2, ![8192, 1024]⟩
abbrev S1024 : Shape := ⟨1, ![1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x256x8192, .f32⟩
  | .hbm, ⟨1, _⟩ => ⟨S8192x8192, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x8192, .f32⟩
  | .hbm, ⟨9, _⟩ => ⟨S8192x8192, .f32⟩
  | .hbm, ⟨10, _⟩ => ⟨S2x256x8192, .f32⟩
  | _, _ => ⟨S2x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S8192x1024_S8192x8192_1_1_0_0_n_n_wf : DotDims.WF S8192x1024 S8192x1024 S8192x8192 [1] [1] [0] [0] [] []
  dot_S2x256x8192_S8192x8192_S2x256x8192_2_1_01_0_n_n_wf : DotDims.WF S2x256x8192 S8192x8192 S2x256x8192 [2] [1] [0, 1] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S2x256x8192_S8192x8192_S2x256x8192_2_1_01_0_n_n : DotDims S2x256x8192 S8192x8192 S2x256x8192 where
  lhsContracting := [2]
  rhsContracting := [1]
  lhsNonContracting := [0, 1]
  rhsNonContracting := [0]
  lhsBatch := []
  rhsBatch := []
  wf := dot_S2x256x8192_S8192x8192_S2x256x8192_2_1_01_0_n_n_wf

class Facts : Prop extends Facts₀ where

variable [Facts]
-- ==== Proof.Spec.lean ====
/-
  The two programs as formulas over the extended reals.

  Inputs: x [2, 256, 8192], base [8192, 8192], U [8192, 1024], S [1024], V [8192, 1024].
  The reference forms the weight  w(o, i) = base(o, i) + Σ_r (U(o, r) · S(r)) · V(i, r)  and returns
      y(b, s, o) = Σ_i x(b, s, i) · w(o, i).
  The kernel never forms w. With the rows flattened, m = 256·b + s, it first takes
      t(m, r) = (Σ_i x(m, i) · V(i, r)) · S(r),
  then sums x(m, ·) · base(o, ·) over the 8192 columns in 16 consecutive chunks of 512, one chunk per step,
  and at the last step adds Σ_r t(m, r) · U(o, r).
-/
import Idealize.ShloMosaic.PureOps.Ideal
import Idealize.ShloMosaic.Lib.ValueIdx

noncomputable section

namespace LowRank

open Idealize.ShloMosaic Idealize.ShloMosaic.ValueIdx

/-- The shapes, spelt literally. -/
abbrev SX : Shape := ⟨3, ![2, 256, 8192]⟩
abbrev SB : Shape := ⟨2, ![8192, 8192]⟩
abbrev SU : Shape := ⟨2, ![8192, 1024]⟩
abbrev SS : Shape := ⟨1, ![1024]⟩

/-- A function into the extended reals all of whose values are real numbers. -/
def IsReal {ι : Type} (f : ι → EReal) : Prop := ∃ g : ι → ℝ, f = fun i => (g i : EReal)

/-- The reference's entry (b, s, o): Σ_i x(b,s,i) · (base(o,i) + Σ_r (U(o,r) · S(r)) · V(i,r)). -/
def refVal (x : SX.Idx → EReal) (base : SB.Idx → EReal) (U : SU.Idx → EReal) (S : SS.Idx → EReal) (V : SU.Idx → EReal)
    (b : Fin 2) (s : Fin 256) (o : Fin 8192) : EReal :=
  ∑ i : Fin 8192, x (ix3 b s i) * (base (ix2 o i) + ∑ r : Fin 1024, (U (ix2 o r) * S (ix1 r)) * V (ix2 i r))

/-- Row m of the input with its two leading axes flattened: m = 256·b + s. -/
def flat (x : SX.Idx → EReal) (m : Fin 512) (i : Fin 8192) : EReal :=
  x (ix3 (⟨m.val / 256, by have := m.isLt; omega⟩ : Fin 2) (⟨m.val % 256, Nat.mod_lt _ (by decide)⟩ : Fin 256) i)

/-- Column number k of chunk (n mod 16): 512·(n mod 16) + k. -/
def col (n : Nat) (k : Fin 512) : Fin 8192 :=
  ⟨(n % 16) * 512 + k.val, by have := k.isLt; have := Nat.mod_lt n (show 0 < 16 by decide); omega⟩

/-- The projection the kernel's host part computes: t(m, r) = (Σ_i x(m,i) · V(i,r)) · S(r). -/
def tVal (x : SX.Idx → EReal) (S : SS.Idx → EReal) (V : SU.Idx → EReal) (m : Fin 512) (r : Fin 1024) : EReal :=
  (∑ i : Fin 8192, flat x m i * V (ix2 i r)) * S (ix1 r)

/-- What one grid step adds to the accumulator at (m, o): the chunk (n mod 16) of Σ_i x(m,i) · base(o,i). -/
def chunk (x : SX.Idx → EReal) (base : SB.Idx → EReal) (n : Nat) (m : Fin 512) (o : Fin 8192) : EReal :=
  ∑ k : Fin 512, flat x m (col n k) * base (ix2 o (col n k))

/-- The kernel's entry (m, o): the sixteen chunks in order, then the low-rank term. -/
def kerVal (x : SX.Idx → EReal) (base : SB.Idx → EReal) (U : SU.Idx → EReal) (S : SS.Idx → EReal) (V : SU.Idx → EReal)
    (m : Fin 512) (o : Fin 8192) : EReal :=
  (∑ n ∈ Finset.range 16, chunk x base n m o) + ∑ r : Fin 1024, tVal x S V m r * U (ix2 o r)

/-- Row 256·b + s of the flattened input. -/
def row (b : Fin 2) (s : Fin 256) : Fin 512 := ⟨256 * b.val + s.val, by have := b.isLt; have := s.isLt; omega⟩

/-- The kernel's result as an array of shape [2, 256, 8192]. -/
def kerArr (x : SX.Idx → EReal) (base : SB.Idx → EReal) (U : SU.Idx → EReal) (S : SS.Idx → EReal) (V : SU.Idx → EReal) :
    SX.Idx → EReal :=
  fun j => kerVal x base U S V (row (j 0) (j 1)) (j 2)

/-- The reference's result as an array of shape [2, 256, 8192]. -/
def refArr (x : SX.Idx → EReal) (base : SB.Idx → EReal) (U : SU.Idx → EReal) (S : SS.Idx → EReal) (V : SU.Idx → EReal) :
    SX.Idx → EReal :=
  fun j => refVal x base U S V (j 0) (j 1) (j 2)

end LowRank

end
-- ==== Proof.RefValue.lean ====
/-
  The reference program's result, read entry by entry, is the formula  refVal:
      y(b, s, o) = Σ_i x(b,s,i) · (base(o,i) + Σ_r (U(o,r) · S(r)) · V(i,r)).
  The reference computes exactly these operations in exactly this order (two broadcasts of S, a pointwise product
  with U, a contraction with V over r, a pointwise sum with base, a contraction with x over i), so the proof only
  identifies the indices at which each operation reads its operands; no algebra is involved.
-/
import proofs.«128202_j43052752175269_2_alg».proof.Proof.Gen.ReferenceIdeal.Read
import proofs.«128202_j43052752175269_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The outer contraction reads x at (b, s, i). -/
theorem lidx5 (b : Fin 2) (s : Fin 256) (o i : Fin 8192) : lidx_main_v5 (ix3 b s o) i = ix3 b s i :=
  funext fun a => Fin.ext (by match a with | ⟨0, _⟩ => rfl | ⟨1, _⟩ => rfl | ⟨2, _⟩ => rfl)

/-- The outer contraction reads the weight at (o, i). -/
theorem ridx5 (b : Fin 2) (s : Fin 256) (o i : Fin 8192) : ridx_main_v5 (ix3 b s o) i = ix2 o i :=
  funext fun a => Fin.ext (by match a with | ⟨0, _⟩ => rfl | ⟨1, _⟩ => rfl)

/-- The inner contraction reads U · S at (o, r). -/
theorem lidx3 (o i : Fin 8192) (r : Fin 1024) : lidx_main_v3 (ix2 o i) r = ix2 o r :=
  funext fun a => Fin.ext (by match a with | ⟨0, _⟩ => rfl | ⟨1, _⟩ => rfl)

/-- The inner contraction reads V at (i, r). -/
theorem ridx3 (o i : Fin 8192) (r : Fin 1024) : ridx_main_v3 (ix2 o i) r = ix2 i r :=
  funext fun a => Fin.ext (by match a with | ⟨0, _⟩ => rfl | ⟨1, _⟩ => rfl)

/-- The two broadcasts of S read it at r. -/
theorem idx01 (o : Fin 8192) (r : Fin 1024) : idx_main_v0 (idx_main_v1 (ix2 o r)) = ix1 r :=
  funext fun a => Fin.ext (by match a with | ⟨0, _⟩ => rfl)

/-- The reference's result is the array of the values refVal. -/
theorem val_eq_refArr (x0 : (⟨Cert.ReferenceIdeal.S2x256x8192, .f32⟩ : BufTy).Contents (Elt Ideal))
    (x1 : (⟨Cert.ReferenceIdeal.S8192x8192, .f32⟩ : BufTy).Contents (Elt Ideal))
    (x2 : (⟨Cert.ReferenceIdeal.S8192x1024, .f32⟩ : BufTy).Contents (Elt Ideal))
    (x3 : (⟨Cert.ReferenceIdeal.S1024, .f32⟩ : BufTy).Contents (Elt Ideal))
    (x4 : (⟨Cert.ReferenceIdeal.S8192x1024, .f32⟩ : BufTy).Contents (Elt Ideal)) :
    Cert.ReferenceIdeal.Read.val_main_v5 (F := Ideal) x0 x1 x2 x3 x4 = LowRank.refArr x0 x1 x2 x3 x4 := by
  funext j
  obtain ⟨b, s, o, rfl⟩ : ∃ (b : Fin 2) (s : Fin 256) (o : Fin 8192), j = ix3 b s o := ⟨j 0, j 1, j 2, eq_ix3 j⟩
  refine (val_main_v5_apply x0 x1 x2 x3 x4 (ix3 b s o)).trans ?_
  show _ = LowRank.refVal x0 x1 x2 x3 x4 b s o
  unfold LowRank.refVal
  refine Finset.sum_congr rfl fun i _ => ?_
  rw [lidx5, ridx5, val_main_v4_apply, val_main_v3_apply]
  show x0 (ix3 b s i) * (x1 (ix2 o i) + _) = _
  congr 2
  refine Finset.sum_congr rfl fun r _ => ?_
  rw [lidx3, ridx3, val_main_v2_apply, val_main_v1_apply, val_main_v0_apply, idx01]
  rfl

end Cert.ReferenceIdeal.RefValue

end
-- ==== Proof.LibLowRank.lean ====
/-
  Three general facts about finite sums, used to compare two ways of evaluating
  a product with a low-rank correction  Σ_i x_i · (b_i + Σ_r (u_r · s_r) · v_{i,r}).
-/
import Mathlib.Data.EReal.Operations
import Mathlib.Algebra.BigOperators.Fin
import Mathlib.Tactic.Ring

namespace LowRank

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `a · b` consecutive indices is the sum of its `a` consecutive runs of length `b`:
run number `n` consists of the indices `n · b + k` with `k < b`. -/
theorem sum_chunks {M : Type*} [AddCommMonoid M] (a b : ℕ) (g : ℕ → M) :
    ∑ n ∈ Finset.range a, ∑ k : Fin b, g (n * b + k.val) = ∑ i : Fin (a * b), g i.val := by
  rw [Fin.sum_univ_eq_sum_range (fun i => g i) (a * b)]
  induction a with
  | zero => simp
  | succ a ih =>
    rw [Finset.sum_range_succ, ih, Nat.succ_mul, Finset.sum_range_add,
      Fin.sum_univ_eq_sum_range (fun k => g (a * b + k)) b]

/-- Distributivity and an exchange of two finite sums: adding the low-rank term
`Σ_r ((Σ_i x_i · v_{i,r}) · s_r) · u_r` to `Σ_i x_i · b_i` is the same as contracting `x` against
the corrected weight `b_i + Σ_r (u_r · s_r) · v_{i,r}`. -/
theorem lowrank_real {I R : Type*} [Fintype I] [Fintype R] (x b : I → ℝ) (u s : R → ℝ) (v : I → R → ℝ) :
    (∑ i, x i * b i) + ∑ r, ((∑ i, x i * v i r) * s r) * u r
      = ∑ i, x i * (b i + ∑ r, (u r * s r) * v i r) := by
  simp only [mul_add, Finset.sum_add_distrib, Finset.mul_sum, Finset.sum_mul]
  congr 1
  rw [Finset.sum_comm]
  refine Finset.sum_congr rfl fun i _ => Finset.sum_congr rfl fun r _ => ?_
  ring

end LowRank
-- ==== Proof.SpecLaw.lean ====
/-
  The kernel's formula equals the reference's formula when every input entry is a real number.

  With the rows flattened, row 256·b + s of the input is x(b, s, ·). The sixteen consecutive chunks of 512
  columns together run over all 8192 columns once, so the accumulated part is Σ_i x(b,s,i) · base(o,i).
  On real numbers the remaining identity is distributivity and an exchange of the two finite sums;
  the inclusion of the reals in the extended reals respects +, · and finite sums, so it carries over.
-/
import proofs.«128202_j43052752175269_2_alg».proof.Proof.Spec
import proofs.«128202_j43052752175269_2_alg».proof.Proof.LibLowRank

namespace LowRank

open Idealize.ShloMosaic Idealize.ShloMosaic.ValueIdx

/-- Row 256·b + s of the flattened input is the row (b, s) of the input:
(256·b + s) / 256 = b and (256·b + s) mod 256 = s because s < 256. -/
theorem flat_row (x : SX.Idx → EReal) (b : Fin 2) (s : Fin 256) (i : Fin 8192) :
    flat x (row b s) i = x (ix3 b s i) := by
  unfold flat
  have hA : (⟨(row b s).val / 256, by have := (row b s).isLt; omega⟩ : Fin 2) = b :=
    Fin.ext (by simp only [row]; have := s.isLt; omega)
  have hB : (⟨(row b s).val % 256, Nat.mod_lt _ (by decide)⟩ : Fin 256) = s :=
    Fin.ext (by simp only [row]; have := s.isLt; omega)
  rw [hA, hB]

/-- The columns 512·n + k, for n < 16 and k < 512, are the 8192 columns, each once:
summing chunk by chunk is summing over all columns. -/
theorem sum_col {M : Type*} [AddCommMonoid M] (f : Fin 8192 → M) :
    ∑ n ∈ Finset.range 16, ∑ k : Fin 512, f (col n k) = ∑ i : Fin 8192, f i := by
  have h := sum_chunks 16 512 (fun n => if h : n < 8192 then f ⟨n, h⟩ else 0)
  have hR : ∑ i : Fin (16 * 512), (fun n => if h : n < 8192 then f ⟨n, h⟩ else 0) i.val
      = ∑ i : Fin 8192, f i := by
    show ∑ i : Fin 8192, (if h : i.val < 8192 then f ⟨i.val, h⟩ else 0) = _
    refine Finset.sum_congr rfl fun i _ => ?_
    rw [dif_pos i.isLt]
  rw [← hR, ← h]
  refine Finset.sum_congr rfl fun n hn => Finset.sum_congr rfl fun k _ => ?_
  have hn' : n < 16 := Finset.mem_range.mp hn
  have hlt : n * 512 + k.val < 8192 := by have := k.isLt; omega
  show f (col n k) = if h : n * 512 + k.val < 8192 then f ⟨n * 512 + k.val, h⟩ else 0
  rw [dif_pos hlt]
  congr 1
  apply Fin.ext
  simp only [col, Nat.mod_eq_of_lt hn']

/-- Entry by entry, the kernel's formula at row 256·b + s and the reference's formula at (b, s) agree,
provided every input entry is real. -/
theorem kerVal_eq_refVal (x : SX.Idx → EReal) (base : SB.Idx → EReal) (U : SU.Idx → EReal)
    (S : SS.Idx → EReal) (V : SU.Idx → EReal)
    (hx : IsReal x) (hb : IsReal base) (hU : IsReal U) (hS : IsReal S) (hV : IsReal V)
    (b : Fin 2) (s : Fin 256) (o : Fin 8192) :
    kerVal x base U S V (row b s) o = refVal x base U S V b s o := by
  obtain ⟨xr, rfl⟩ := hx
  obtain ⟨br, rfl⟩ := hb
  obtain ⟨ur, rfl⟩ := hU
  obtain ⟨sr, rfl⟩ := hS
  obtain ⟨vr, rfl⟩ := hV
  unfold kerVal refVal chunk tVal
  simp only [flat_row]
  rw [sum_col (fun i : Fin 8192 => (xr (ix3 b s i) : EReal) * (br (ix2 o i) : EReal))]
  simp only [← EReal.coe_mul, ← coe_sum, ← EReal.coe_add]
  exact congrArg Real.toEReal
    (lowrank_real (fun i : Fin 8192 => xr (ix3 b s i)) (fun i => br (ix2 o i))
      (fun r : Fin 1024 => ur (ix2 o r)) (fun r => sr (ix1 r)) (fun i r => vr (ix2 i r)))

/-- The two result arrays are equal when every input entry is real. -/
theorem kerArr_eq_refArr (x : SX.Idx → EReal) (base : SB.Idx → EReal) (U : SU.Idx → EReal)
    (S : SS.Idx → EReal) (V : SU.Idx → EReal)
    (hx : IsReal x) (hb : IsReal base) (hU : IsReal U) (hS : IsReal S) (hV : IsReal V) :
    kerArr x base U S V = refArr x base U S V := by
  funext j
  exact kerVal_eq_refVal x base U S V hx hb hU hS hV (j 0) (j 1) (j 2)

end LowRank
-- ==== Proof.Finite.lean ====
/-
  The precondition says every input entry is a real number.

  The precondition computes, for each of the five inputs, whether |x| < +∞ holds at every entry, and joins the five
  answers by "and". Over the extended reals |x| is max x (−x), which is +∞ exactly at the two infinities, so
  |x| < +∞ says x is neither of them: x is a real number. An "and" over all entries that comes out true was true at
  every entry, so each input is an array of reals.
-/
import proofs.«128202_j43052752175269_2_alg».proof.Pre_finite_inputs
import proofs.«128202_j43052752175269_2_alg».proof.Proof.Spec
import Idealize.ShloMosaic.Lib.ReduceAll
import Idealize.ShloMosaic.Lib.ValueIdx
import Idealize.ShloMosaic.PureOps.Ideal

namespace LowRank

open Idealize.ShloMosaic

/-- An extended real whose absolute value max x (−x) lies strictly below +∞ is a real number:
at −∞ and at +∞ the maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞, with +∞ written as the single-precision pattern 0x7F800000, answers 1 only at a real number. -/
theorem real_of_finite_test (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  exact real_of_abs_lt_top x hlt

/-- The result shape of a reduction over all axes has exactly one index. -/
instance : Subsingleton Cert.Pre_finite_inputs.S_.Idx := ⟨fun a b => funext fun d => d.elim0⟩

/-- One input: if the "and" over all entries of the test |a i| < +∞ is 1, every entry of `a` is real. -/
theorem isReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a) (broadcastInDim s ![] hb (constant Cert.Pre_finite_inputs.S_ .f32 0x7F800000#32)))
        init hr hu j = 1#1) :
    IsReal a := by
  have hall := Host.reduce_andi_all _ init hr hu j e
  have hel : ∀ i, ∃ r : ℝ, a i = (r : EReal) := fun i => real_of_finite_test (a i) (hall i)
  choose g hg using hel
  exact ⟨g, funext hg⟩

/-- The precondition, read back: each of the five inputs is an array of real numbers. -/
theorem real_of_pre [Cert.Pre_finite_inputs.Facts]
    (a0 : FVec Ideal Cert.Pre_finite_inputs.S2x256x8192 .f32) (a1 : FVec Ideal Cert.Pre_finite_inputs.S8192x8192 .f32)
    (a2 : FVec Ideal Cert.Pre_finite_inputs.S8192x1024 .f32) (a3 : FVec Ideal Cert.Pre_finite_inputs.S1024 .f32)
    (a4 : FVec Ideal Cert.Pre_finite_inputs.S8192x1024 .f32)
    (h : Cert.Pre_finite_inputs.fn (F := Ideal) a0 a1 a2 a3 a4 = fun _ => 1#1) :
    IsReal a0 ∧ IsReal a1 ∧ IsReal a2 ∧ IsReal a3 ∧ IsReal a4 := by
  have h0 := congrFun h ValueIdx.ix0
  dsimp only [Cert.Pre_finite_inputs.fn, Cert.Pre_finite_inputs.fn_part1, andi] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨isReal_of_all a0 _ _ _ _ _ e0, isReal_of_all a1 _ _ _ _ _ e1, isReal_of_all a2 _ _ _ _ _ e2,
    isReal_of_all a3 _ _ _ _ _ e3, isReal_of_all a4 _ _ _ _ _ e4⟩

end LowRank
-- ==== Proof.Assembly.lean ====
/-
  The certificate's five claims, assembled.

  The three frame claims are the generated frames (the reference's is its generated run with the result dropped), and
  the idealized kernel is the kernel's own text, so nothing is owed for that step. The algebraic claim compares the two
  idealized programs from memories that agree on the five arguments: the kernel's result is the array of the kernel's
  formula of the arguments (the hypothesis `KernelRun` below, proved separately), the reference's result is the array
  of the reference's formula, and under the precondition, which makes every argument entry a real number, the two
  arrays are equal.
-/
import proofs.«128202_j43052752175269_2_alg».proof.Defs
import proofs.«128202_j43052752175269_2_alg».proof.Proof.Gen.Kernel.Frame
import proofs.«128202_j43052752175269_2_alg».proof.Proof.Gen.KernelIdeal.Frame
import proofs.«128202_j43052752175269_2_alg».proof.Proof.Gen.ReferenceIdeal.Read
import proofs.«128202_j43052752175269_2_alg».proof.Proof.Gen.Pre_finite_inputs
import proofs.«128202_j43052752175269_2_alg».proof.Proof.Gen.Kernel
import proofs.«128202_j43052752175269_2_alg».proof.Proof.Gen.KernelIdeal
import proofs.«128202_j43052752175269_2_alg».proof.Proof.Gen.ReferenceIdeal
import proofs.«128202_j43052752175269_2_alg».proof.Proof.RefValue
import proofs.«128202_j43052752175269_2_alg».proof.Proof.SpecLaw
import proofs.«128202_j43052752175269_2_alg».proof.Proof.Finite
import proofs.«128202_j43052752175269_2_alg».proof.Proof.Spec

noncomputable section

namespace Cert.Proof.Assembly

open Idealize.ShloMosaic Idealize.ShloMosaic.TcCoe Idealize.SL.Sem

/-- What the run of the idealized kernel is to establish: from any memory, on every device, the result array ends at
the kernel's formula of the five argument arrays, and the arguments end unchanged. -/
def KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v10)
        = LowRank.kerArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- Under the precondition the two idealized programs end with equal results: both result arrays are the
reference's formula of the kernel's argument arrays. -/
theorem algebraic_of (hrun : KernelRun) : Cert.algebraic_KernelIdeal_ReferenceIdeal := by
  intro m ρ m' ρ' hpre hagree
  refine ⟨fun c => LowRank.refArr (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)), ?_, ?_⟩
  · refine (θ_run _ _ _).mono (fun r h c => ⟨(h c).1.trans ?_, (h c).2⟩) (hrun m ρ)
    obtain ⟨h0, h1, h2, h3, h4⟩ := LowRank.real_of_pre _ _ _ _ _ (hpre c)
    exact LowRank.kerArr_eq_refArr _ _ _ _ _ h0 h1 h2 h3 h4
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v5_eq, Cert.ReferenceIdeal.RefValue.val_eq_refArr,
      (hagree c).1, (hagree c).2.1, (hagree c).2.2.1, (hagree c).2.2.2.1, (hagree c).2.2.2.2]

/-- The whole claim, given the kernel's run. -/
theorem claim_of (hrun : KernelRun) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hrun⟩

end Cert.Proof.Assembly

end
-- ==== Proof.Pieces.lean ====
/-
  What each control case of the kernel body leaves behind, as values.

  The body keeps an accumulator (a [512, 1024] scratch) across the sixteen steps of one output tile. At every step it
  adds to the accumulator the product of 512 columns of the resident input with the transposed [1024, 512] tile of the
  base weight. At the first step of a tile the accumulator is first set to zero; at the last step the product of the
  projected input t with the transposed [1024, 1024] tile of U is added to the accumulator and the sum is stored as the
  output tile. The three cases (first step, middle step, last step) each end with ONE whole-buffer store per buffer they
  write, so what the buffer holds afterwards is that store's payload, with the loads the payload reads replaced by the
  contents of the buffers they read.
-/
import proofs.«128202_j43052752175269_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces
open Cert.KernelIdeal Cert.KernelIdeal.Gen

variable {F : FTy → Type} [FloatOps F]

theorem hz : (![0, 0] : Fin 2 → Nat) = fun _ => 0 := funext fun a => by fin_cases a <;> rfl

/-- The 512 columns of the resident input that the step at grid point `i` loads. -/
abbrev xchunk (i : grid0.Coords) (x0 : Vec F S512x8192 .bf16) : Vec F S512x512 .bf16 :=
  View.ld x0 (Rect.unit (s := S512x8192) (k0_off1 i) S512x512.size (k0_off1_inb i))

variable (c : Dev nD) (i : grid0.Coords) (arg2 : Memref sig .tc .vmem S512x8192 .bf16) (harg2 : arg2.IsWhole) (arg3 : Memref sig .tc .vmem S1024x512 .f32) (harg3 : arg3.IsWhole) (arg4 : Memref sig .tc .vmem S1024x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .f32) (harg7 : arg7.IsWhole)
  (x0 : Vec F S512x8192 .bf16) (x1 : Vec F S1024x512 .f32) (x2 : Vec F S1024x1024 .bf16) (x3 : Vec F S512x1024 .bf16) (xs0 : Vec F S512x1024 .f32)

theorem sout_B (hc0 : ¬cond0_0 i) (hc1 : ¬cond0_1 i) :
    sout0_B_0 c i arg2 harg2 arg3 harg3 arg4 harg4 arg5 harg5 arg6 harg6 arg7 harg7 hc0 hc1 x0 x1 x2 x3 xs0
      = k0_pay2 (xchunk i x0) x1 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg7.read_unread, View.ld_unit_zero (S := S1024x512) hz, View.ld_unit_zero (S := S512x1024) hz]

theorem sout_C (hc0 : ¬cond0_0 i) (hc1 : cond0_1 i) :
    sout0_C_0 c i arg2 harg2 arg3 harg3 arg4 harg4 arg5 harg5 arg6 harg6 arg7 harg7 hc0 hc1 x0 x1 x2 x3 xs0
      = k0_pay2 (xchunk i x0) x1 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz]
  simp only [View.readAt_eq_ld, harg2.read_unread, harg3.read_unread, harg4.read_unread, harg5.read_unread, harg7.read_unread, View.ld_unit_zero (S := S1024x512) hz, View.ld_unit_zero (S := S512x1024) hz, View.ld_unit_zero (S := S1024x1024) hz]

theorem out_C (hc0 : ¬cond0_0 i) (hc1 : cond0_1 i) :
    out0_C_4 c i arg2 harg2 arg3 harg3 arg4 harg4 arg5 harg5 arg6 harg6 arg7 harg7 hc0 hc1 x0 x1 x2 x3 xs0
      = k0_pay3 x3 x2 (k0_pay2 (xchunk i x0) x1 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_run_names
  rw [View.canon_unit_zero hz, View.readCov_unit_zero (S := S512x1024) _ hz]
  simp only [View.readAt_eq_ld, harg2.read_unread, harg3.read_unread, harg4.read_unread, harg5.read_unread, harg7.read_unread, View.ld_unit_zero (S := S1024x512) hz, View.ld_unit_zero (S := S512x1024) hz, View.ld_unit_zero (S := S1024x1024) hz]

theorem sout_A (hc0 : cond0_0 i) (hc1 : ¬cond0_1 i) :
    sout0_A_0 c i arg2 harg2 arg3 harg3 arg4 harg4 arg5 harg5 arg6 harg6 arg7 harg7 hc0 hc1 x0 x1 x2 x3
      = k0_pay2 (xchunk i x0) x1 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_run_names
  rw [View.canon_cons_unit_zero (S := S512x1024) hz, View.readCov_unit_zero (S := S512x1024) _ hz]
  simp only [View.readAt_eq_ld, harg2.read_unread, harg3.read_unread, harg4.read_unread, harg5.read_unread, harg7.read_unread, View.ld_unit_zero (S := S1024x512) hz, View.ld_unit_zero (S := S512x1024) hz, View.ld_unit_zero (S := S1024x1024) hz]

end Cert.KernelIdeal.Pieces
end
-- ==== Proof.Steps.lean ====
/-
  The accumulator and the output tile, point by point, as payloads.

  After the first step of an output tile the accumulator holds the step's product added to the zero block; after every
  later step, the step's product added to what the step before left; and the last step's output tile is the low-rank
  product added to the accumulator that very step leaves.
-/
import proofs.«128202_j43052752175269_2_alg».proof.Proof.Gen.KernelIdeal.Frame
import proofs.«128202_j43052752175269_2_alg».proof.Proof.Pieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Steps
open Cert.KernelIdeal Cert.KernelIdeal.Gen Cert.KernelIdeal.Pieces

variable {F : FTy → Type} [FloatOps F]
variable (m : (ℓ : Loc nD τ sig) → Buf (Elt F) ℓ)

/-- The point-indexed contents do not depend on how the point's number is written. -/
theorem outsAt_congr (c : Dev nD) (u v : ℕ) (hu : u < cfg0.N) (hv : v < cfg0.N) (e : u = v) :
    outsAt0 m c u hu = outsAt0 m c v hv := by subst e; rfl

/-- First step of a tile: the accumulator is the step's product added to the zero block. -/
theorem scratch_first (c : Dev nD) (t : Fin cfg0.N) (h0 : t.val % 16 = 0) :
    (outsAt0 m c t.val t.isLt).2
      = k0_pay2 (xchunk (grid0.coords t) (iblk m c 0 t)) (iblk m c 1 t) k0_pay1 := by
  have h1 : ¬t.val % 16 = 15 := by omega
  rw [outsAt0_A m c t h0 h1]
  dsimp only
  rw [sout_A]

/-- Any later step: the step's product added to what the step before left. -/
theorem scratch_step (c : Dev nD) (t : Fin cfg0.N) (h0 : ¬t.val % 16 = 0) :
    (outsAt0 m c t.val t.isLt).2
      = k0_pay2 (xchunk (grid0.coords t) (iblk m c 0 t)) (iblk m c 1 t)
          (outsAt0 m c (t.val - 1) (Nat.lt_of_le_of_lt (Nat.sub_le _ _) t.isLt)).2 := by
  by_cases h1 : t.val % 16 = 15
  · rw [outsAt0_C m c t h0 h1]
    dsimp only
    rw [sout_C]
  · rw [outsAt0_B m c t h0 h1]
    dsimp only
    rw [sout_B]

/-- Last step of a tile: the output tile is the low-rank product added to the accumulator that step leaves. -/
theorem out_last (c : Dev nD) (t : Fin cfg0.N) (h1 : t.val % 16 = 15) :
    (outsAt0 m c t.val t.isLt).1
      = k0_pay3 (iblk m c 3 t) (iblk m c 2 t) (outsAt0 m c t.val t.isLt).2 := by
  have h0 : ¬t.val % 16 = 0 := by omega
  rw [outsAt0_C m c t h0 h1]
  dsimp only
  rw [out_C, sout_C]

end Cert.KernelIdeal.Steps
end
-- ==== Proof.Blocks.lean ====
/-
  Which entries of the arrays each grid step sees.

  The grid has 8 × 16 points, numbered t = 16·a + j: a is the output tile (columns 1024·a … 1024·a + 1023 of the
  result), j the chunk of 512 contraction columns. At point t the base-weight window holds rows 1024·a + p and columns
  512·j + q of base; the U window holds rows 1024·a + p of U; the input and the projected input t are resident whole;
  and the body loads columns 512·j + k of the resident input. The output window's block is columns 1024·a + oo.
-/
import proofs.«128202_j43052752175269_2_alg».proof.Proof.Gen.KernelIdeal.Frame
import proofs.«128202_j43052752175269_2_alg».proof.Proof.Pieces
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)
open Idealize.ShloMosaic.ValueIdx

namespace Cert.KernelIdeal.Blocks
open Cert.KernelIdeal Cert.KernelIdeal.Gen Cert.KernelIdeal.Pieces

variable {F : FTy → Type} [FloatOps F]
variable (m : (ℓ : Loc nD τ sig) → Buf (Elt F) ℓ)

/-- The printed index maps and the body's load offset, decided once over the 128 grid points. -/
theorem idx_facts : ∀ t : Fin cfg0.N,
    win0_0.index t (0 : Fin 2) = 0 ∧ win0_0.index t (1 : Fin 2) = 0
    ∧ win0_1.index t (0 : Fin 2) = t.val / 16 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val / 16
    ∧ k0_off1 (grid0.coords t) = ![0, (t.val % 16) * 512] :=
  (by decide +kernel : ∀ t : Fin grid0.N, _)

/-- The resident input's block is the whole [512, 8192] array. -/
theorem iblk0_apply (c : Dev nD) (t : Fin cfg0.N) (mm : Fin 512) (i : Fin 8192) :
    (iblk m c 0 t : Vec F S512x8192 .bf16) (ix2 mm i) = (V m c main_v1 : S512x8192.Idx → Elt F .bf16) (ix2 mm i) := by
  obtain ⟨e00, e01, -⟩ := idx_facts t
  show V m c main_v1 (((cfg0.win 0).blk t).view.emb (ix2 mm i)) = V m c main_v1 (ix2 mm i)
  congr 1
  funext a; apply Fin.ext
  match a with
  | ⟨0, _⟩ => show win0_0.index t (0 : Fin 2) * 512 + 1 * mm.val = mm.val; rw [e00]; omega
  | ⟨1, _⟩ => show win0_0.index t (1 : Fin 2) * 8192 + 1 * i.val = i.val; rw [e01]; omega

/-- The base-weight window at point 16·a + j: rows 1024·a + p, columns 512·j + q. -/
theorem iblk1_apply (c : Dev nD) (t : Fin cfg0.N) (a : Fin 8) (j : Fin 16) (ht : t.val = 16 * a.val + j.val)
    (p : Fin 1024) (q : Fin 512) :
    (iblk m c 1 t : Vec F S1024x512 .f32) (ix2 p q)
      = (V m c main_arg1 : S8192x8192.Idx → Elt F .f32)
          (ix2 (⟨a.val * 1024 + p.val, by have := a.isLt; have := p.isLt; omega⟩ : Fin 8192)
               (⟨j.val * 512 + q.val, by have := j.isLt; have := q.isLt; omega⟩ : Fin 8192)) := by
  obtain ⟨-, -, e10, e11, -⟩ := idx_facts t
  show V m c main_arg1 (((cfg0.win 1).blk t).view.emb (ix2 p q)) = V m c main_arg1 _
  congr 1
  funext b; apply Fin.ext
  have := a.isLt; have := j.isLt
  match b with
  | ⟨0, _⟩ => show win0_1.index t (0 : Fin 2) * 1024 + 1 * p.val = a.val * 1024 + p.val; rw [e10]; omega
  | ⟨1, _⟩ => show win0_1.index t (1 : Fin 2) * 512 + 1 * q.val = j.val * 512 + q.val; rw [e11]; omega

/-- The U window at point 16·a + j: rows 1024·a + p, every column. -/
theorem iblk2_apply (c : Dev nD) (t : Fin cfg0.N) (a : Fin 8) (j : Fin 16) (ht : t.val = 16 * a.val + j.val)
    (p : Fin 1024) (r : Fin 1024) :
    (iblk m c 2 t : Vec F S1024x1024 .bf16) (ix2 p r)
      = (V m c main_v3 : S8192x1024.Idx → Elt F .bf16)
          (ix2 (⟨a.val * 1024 + p.val, by have := a.isLt; have := p.isLt; omega⟩ : Fin 8192) r) := by
  obtain ⟨-, -, -, -, e20, e21, -⟩ := idx_facts t
  show V m c main_v3 (((cfg0.win 2).blk t).view.emb (ix2 p r)) = V m c main_v3 _
  congr 1
  funext b; apply Fin.ext
  have := a.isLt; have := j.isLt
  match b with
  | ⟨0, _⟩ => show win0_2.index t (0 : Fin 2) * 1024 + 1 * p.val = a.val * 1024 + p.val; rw [e20]; omega
  | ⟨1, _⟩ => show win0_2.index t (1 : Fin 2) * 1024 + 1 * r.val = r.val; rw [e21]; omega

/-- The projected input's block is the whole [512, 1024] array. -/
theorem iblk3_apply (c : Dev nD) (t : Fin cfg0.N) (mm : Fin 512) (r : Fin 1024) :
    (iblk m c 3 t : Vec F S512x1024 .bf16) (ix2 mm r) = (V m c main_v8 : S512x1024.Idx → Elt F .bf16) (ix2 mm r) := by
  obtain ⟨-, -, -, -, -, -, e30, e31, -⟩ := idx_facts t
  show V m c main_v8 (((cfg0.win 3).blk t).view.emb (ix2 mm r)) = V m c main_v8 (ix2 mm r)
  congr 1
  funext a; apply Fin.ext
  match a with
  | ⟨0, _⟩ => show win0_3.index t (0 : Fin 2) * 512 + 1 * mm.val = mm.val; rw [e30]; omega
  | ⟨1, _⟩ => show win0_3.index t (1 : Fin 2) * 1024 + 1 * r.val = r.val; rw [e31]; omega

/-- The columns the body loads at point 16·a + j: 512·j + k. -/
theorem xchunk_apply (t : Fin cfg0.N) (a : Fin 8) (j : Fin 16) (ht : t.val = 16 * a.val + j.val)
    (x0 : Vec F S512x8192 .bf16) (mm : Fin 512) (k : Fin 512) :
    xchunk (grid0.coords t) x0 (ix2 mm k)
      = x0 (ix2 mm (⟨j.val * 512 + k.val, by have := j.isLt; have := k.isLt; omega⟩ : Fin 8192)) := by
  obtain ⟨-, -, -, -, -, -, -, -, -, -, eo⟩ := idx_facts t
  show x0 ((Rect.unit (s := S512x8192) (k0_off1 (grid0.coords t)) S512x512.size (k0_off1_inb (grid0.coords t))).idx (ix2 mm k)) = _
  congr 1
  funext b; apply Fin.ext
  have := a.isLt; have := j.isLt
  match b with
  | ⟨0, _⟩ => show k0_off1 (grid0.coords t) 0 + 1 * mm.val = mm.val; rw [eo]; show 0 + 1 * mm.val = mm.val; omega
  | ⟨1, _⟩ => show k0_off1 (grid0.coords t) 1 + 1 * k.val = j.val * 512 + k.val; rw [eo]; show (t.val % 16) * 512 + 1 * k.val = _; omega

end Cert.KernelIdeal.Blocks
end
-- ==== Proof.Payload.lean ====
/-
  The three values the kernel body stores, read at one entry (mm, oo) of the 512 × 1024 block.

  * The first step of a row of the grid stores zero.
  * Every step stores  acc(mm, oo) + Σ_k a(mm, k) · w(oo, k):  the block a of the flattened input (512 × 512) times the
    TRANSPOSE of the block w of the base weight (1024 × 512), added to the accumulator.
  * The last step stores  acc(mm, oo) + Σ_r t(mm, r) · u(oo, r):  the projection t (512 × 1024) times the transpose
    of the block u (1024 × 1024).
  Over the extended reals a matrix product into a zero accumulator is the plain sum over the contraction axis, the
  narrowing of a float is the identity and a shape cast to the same shape is the identity, so each statement is
  the index bookkeeping of one contraction (left axis 1 against right axis 0) behind one transpose.
-/
import proofs.«128202_j43052752175269_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.SL.Sem Idealize.ShloMosaic.ValueIdx

variable [Cert.KernelIdeal.Facts]

/-! ## The zero block -/

/-- The block stored at the first step of a row of the grid is zero. -/
theorem pay1_apply (mm : Fin 512) (oo : Fin 1024) : k0_pay1 (F := Ideal) (ix2 mm oo) = 0 := by
  unfold k0_pay1
  rw [shapeCast_self]
  exact Ideal.ofBits_zero_f32

/-! ## The 512-long contraction: the operand indices -/

/-- Left operand, row axis: the result's row. -/
theorem lhsA_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- Left operand, column axis: the contraction position. -/
theorem lhsA_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

/-- Right operand, row axis: the contraction position. -/
theorem rhsA_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

/-- Right operand, column axis: the result's column. -/
theorem rhsA_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The value stored at every step: the accumulator plus the 512-long product of the input block with the
    transposed weight block. -/
theorem pay2_apply (v6 : Vec Ideal S512x512 .bf16) (v8 : Vec Ideal S1024x512 .f32) (v10 : Vec Ideal S512x1024 .f32)
    (mm : Fin 512) (oo : Fin 1024) :
    k0_pay2 v6 v8 v10 (ix2 mm oo) = v10 (ix2 mm oo) + ∑ k : Fin 512, v6 (ix2 mm k) * v8 (ix2 oo k) := by
  unfold k0_pay2
  simp only [shapeCast_self]
  refine (addf_apply _ _ _).trans ?_
  refine congrArg (v10 (ix2 mm oo) + ·) ?_
  refine (Ideal.matmul_constant_zero_apply _ none _ _ _).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 mm oo)
      ((contrEquiv1 dot_S512x512_S512x1024_S512x1024_1_0_0_1_n_n 512 rfl rfl).symm k) = ix2 mm k :=
    funext fun a => Fin.ext (by
      match a with
      | ⟨0, _⟩ => exact lhsA_0 _ _
      | ⟨1, _⟩ => exact (lhsA_1 _ _).trans hk)
  have er : dot_S512x512_S512x1024_S512x1024_1_0_0_1_n_n.rhsIdx (ix2 mm oo)
      ((contrEquiv1 dot_S512x512_S512x1024_S512x1024_1_0_0_1_n_n 512 rfl rfl).symm k) = ix2 k oo :=
    funext fun a => Fin.ext (by
      match a with
      | ⟨0, _⟩ => exact (rhsA_0 _ _).trans hk
      | ⟨1, _⟩ => exact rhsA_1 _ _)
  rw [el, er]
  refine congrArg (v6 (ix2 mm k) * ·) ?_
  exact transpose_apply _ _ _ (ix2 k oo) (ix2 oo k) (fun b => match b with | ⟨0, _⟩ => rfl | ⟨1, _⟩ => rfl)

/-! ## The 1024-long contraction: the operand indices -/

/-- Left operand, row axis: the result's row. -/
theorem lhsB_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

/-- Left operand, column axis: the contraction position. -/
theorem lhsB_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- Right operand, row axis: the contraction position. -/
theorem rhsB_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- Right operand, column axis: the result's column. -/
theorem rhsB_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The value stored at the last step: the accumulator plus the 1024-long product of the projection with the
    transposed block of the left factor. -/
theorem pay3_apply (v20 : Vec Ideal S512x1024 .bf16) (v22 : Vec Ideal S1024x1024 .bf16) (v26 : Vec Ideal S512x1024 .f32)
    (mm : Fin 512) (oo : Fin 1024) :
    k0_pay3 v20 v22 v26 (ix2 mm oo) = v26 (ix2 mm oo) + ∑ r : Fin 1024, v20 (ix2 mm r) * v22 (ix2 oo r) := by
  unfold k0_pay3
  simp only [shapeCast_self]
  refine (addf_apply _ _ _).trans ?_
  refine congrArg (v26 (ix2 mm oo) + ·) ?_
  refine (Ideal.matmul_constant_zero_apply _ none _ _ _).trans ?_
  rw [← Equiv.sum_comp (contrEquiv1 dot_S512x1024_S1024x1024_S512x1024_1_0_0_1_n_n 1024 rfl rfl).symm]
  refine Finset.sum_congr rfl fun r _ => ?_
  have hr := contrEquiv1_symm_val dot_S512x1024_S1024x1024_S512x1024_1_0_0_1_n_n 1024 rfl rfl r
  have el : dot_S512x1024_S1024x1024_S512x1024_1_0_0_1_n_n.lhsIdx (ix2 mm oo)
      ((contrEquiv1 dot_S512x1024_S1024x1024_S512x1024_1_0_0_1_n_n 1024 rfl rfl).symm r) = ix2 mm r :=
    funext fun a => Fin.ext (by
      match a with
      | ⟨0, _⟩ => exact lhsB_0 _ _
      | ⟨1, _⟩ => exact (lhsB_1 _ _).trans hr)
  have er : dot_S512x1024_S1024x1024_S512x1024_1_0_0_1_n_n.rhsIdx (ix2 mm oo)
      ((contrEquiv1 dot_S512x1024_S1024x1024_S512x1024_1_0_0_1_n_n 1024 rfl rfl).symm r) = ix2 r oo :=
    funext fun a => Fin.ext (by
      match a with
      | ⟨0, _⟩ => exact (rhsB_0 _ _).trans hr
      | ⟨1, _⟩ => exact rhsB_1 _ _)
  rw [el, er]
  refine congrArg (v20 (ix2 mm r) * ·) ?_
  exact transpose_apply _ _ _ (ix2 r oo) (ix2 oo r) (fun b => match b with | ⟨0, _⟩ => rfl | ⟨1, _⟩ => rfl)

end Cert.KernelIdeal.Payload

end
-- ==== Proof.HostPrefix.lean ====
/-
  What the arrays hold when the kernel's grid is entered: the host operations before it, read entry by entry.

  * The flattened input: row m = 256·b + s of the [512, 8192] array is row (b, s) of x (a reshape keeps the
    row-major position, and 8192·m + i = 8192·(256·b + s) + i).
  * The left factor U: unchanged.
  * The projection  t(m, r) = (Σ_i x(m, i) · V(i, r)) · S(r):  a contraction of the flattened input with V over i,
    times S broadcast along the rows.
  Over the extended reals the conversions between float formats are the identity, so each statement is index
  bookkeeping: one reshape, one contraction (left axis 1 against right axis 0), two broadcasts.
-/
import proofs.«128202_j43052752175269_2_alg».proof.Proof.Gen.KernelIdeal.Frame
import proofs.«128202_j43052752175269_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen
open Idealize.ShloMosaic Idealize.ShloMosaic.TcCoe Idealize.SL.Sem Idealize.ShloMosaic.StableHlo
open Idealize.ShloMosaic.ValueIdx

/-! ## The operations at an index, over plain arrays -/

/-- The reshape [2, 256, 8192] → [512, 8192] read at (m, i): row m is row (m / 256, m % 256). -/
theorem reshape_apply (x : S2x256x8192.Idx → EReal) (mm : Fin 512) (i : Fin 8192) :
    shapeCast S512x8192 x shapeCasts_S2x256x8192_S512x8192 (ix2 mm i) = LowRank.flat x mm i := by
  unfold LowRank.flat
  refine shapeCast_apply x _ (ix2 mm i) _ ?_
  rw [Shape.rowMajor_val_three, Shape.rowMajor_val_two]
  show ((mm.val / 256) * 256 + mm.val % 256) * 8192 + i.val = mm.val * 8192 + i.val
  have := mm.isLt
  omega

/-- Left operand of the contraction, row axis: the result's row. -/
theorem lhs_0 (j : S512x1024.Idx) (q : dot_S512x8192_S8192x1024_S512x1024_1_0_0_1_n_n.contr.Idx) :
    (dot_S512x8192_S8192x1024_S512x1024_1_0_0_1_n_n.lhsIdx j q 0).val = (j 0).val := by
  unfold DotDims.lhsIdx
  rw [dif_neg (show ¬(0 : Fin S512x8192.rank) ∈ dot_S512x8192_S8192x1024_S512x1024_1_0_0_1_n_n.lhsBatch by decide),
    dif_pos (show (0 : Fin S512x8192.rank) ∈ dot_S512x8192_S8192x1024_S512x1024_1_0_0_1_n_n.lhsNonContracting by decide)]
  rfl

/-- Left operand, column axis: the contraction position. -/
theorem lhs_1 (j : S512x1024.Idx) (q : dot_S512x8192_S8192x1024_S512x1024_1_0_0_1_n_n.contr.Idx) :
    (dot_S512x8192_S8192x1024_S512x1024_1_0_0_1_n_n.lhsIdx j q 1).val = (q ⟨0, by decide⟩).val :=
  dot_S512x8192_S8192x1024_S512x1024_1_0_0_1_n_n.lhsIdx_val_of_single rfl j q

/-- Right operand, row axis: the contraction position. -/
theorem rhs_0 (j : S512x1024.Idx) (q : dot_S512x8192_S8192x1024_S512x1024_1_0_0_1_n_n.contr.Idx) :
    (dot_S512x8192_S8192x1024_S512x1024_1_0_0_1_n_n.rhsIdx j q 0).val = (q ⟨0, by decide⟩).val :=
  dot_S512x8192_S8192x1024_S512x1024_1_0_0_1_n_n.rhsIdx_val_of_single rfl j q

/-- Right operand, column axis: the result's column. -/
theorem rhs_1 (j : S512x1024.Idx) (q : dot_S512x8192_S8192x1024_S512x1024_1_0_0_1_n_n.contr.Idx) :
    (dot_S512x8192_S8192x1024_S512x1024_1_0_0_1_n_n.rhsIdx j q 1).val = (j 1).val := by
  unfold DotDims.rhsIdx
  rw [dif_neg (show ¬(1 : Fin S8192x1024.rank) ∈ dot_S512x8192_S8192x1024_S512x1024_1_0_0_1_n_n.rhsBatch by decide),
    dif_pos (show (1 : Fin S8192x1024.rank) ∈ dot_S512x8192_S8192x1024_S512x1024_1_0_0_1_n_n.rhsNonContracting by decide)]
  rfl

/-- The host's contraction read at (m, r): Σ_i L(m, i) · R(i, r). -/
theorem dot_apply (L : FVec Ideal S512x8192 .bf16) (R : FVec Ideal S8192x1024 .bf16) (mm : Fin 512) (r : Fin 1024) :
    Host.dotGeneral (F := Ideal) dot_S512x8192_S8192x1024_S512x1024_1_0_0_1_n_n none L R (ix2 mm r) = ∑ i : Fin 8192, L (ix2 mm i) * R (ix2 i r) := by
  simp only [Host.dotGeneral]
  rw [Ideal.dotGeneral_apply, ← Equiv.sum_comp (contrEquiv1 dot_S512x8192_S8192x1024_S512x1024_1_0_0_1_n_n 8192 rfl rfl).symm]
  refine Finset.sum_congr rfl fun i _ => ?_
  have hi := contrEquiv1_symm_val dot_S512x8192_S8192x1024_S512x1024_1_0_0_1_n_n 8192 rfl rfl i
  have el : dot_S512x8192_S8192x1024_S512x1024_1_0_0_1_n_n.lhsIdx (ix2 mm r) ((contrEquiv1 dot_S512x8192_S8192x1024_S512x1024_1_0_0_1_n_n 8192 rfl rfl).symm i) = ix2 mm i :=
    funext fun a => Fin.ext (by
      match a with
      | ⟨0, _⟩ => exact lhs_0 _ _
      | ⟨1, _⟩ => exact (lhs_1 _ _).trans hi)
  have er : dot_S512x8192_S8192x1024_S512x1024_1_0_0_1_n_n.rhsIdx (ix2 mm r) ((contrEquiv1 dot_S512x8192_S8192x1024_S512x1024_1_0_0_1_n_n 8192 rfl rfl).symm i) = ix2 i r :=
    funext fun a => Fin.ext (by
      match a with
      | ⟨0, _⟩ => exact (rhs_0 _ _).trans hi
      | ⟨1, _⟩ => exact rhs_1 _ _)
  rw [el, er]

/-- The two broadcasts of S read at (m, r): S(r). -/
theorem bcast_apply (S : S1024.Idx → EReal) (mm : Fin 512) (r : Fin 1024) :
    broadcastInDim S512x1024 ![0, 1] bcast_S1x1024_S512x1024_0_1
      (broadcastInDim S1x1024 ![1] bcast_S1024_S1x1024_1 S) (ix2 mm r) = S (ix1 r) := by
  refine (broadcastInDim_apply _ bcast_S1x1024_S512x1024_0_1 _ (ix2 mm r) (ix2 (0 : Fin 1) r) (fun a => match a with
    | ⟨0, _⟩ => by show 0 = if (1 : Nat) = 1 then 0 else mm.val; rw [if_pos rfl]
    | ⟨1, _⟩ => by show r.val = if (1024 : Nat) = 1 then 0 else r.val; rw [if_neg (by decide)])).trans ?_
  exact broadcastInDim_apply _ bcast_S1024_S1x1024_1 S (ix2 (0 : Fin 1) r) (ix1 r) (fun a => match a with
    | ⟨0, _⟩ => by show r.val = if (1024 : Nat) = 1 then 0 else r.val; rw [if_neg (by decide)])

/-! ## The arrays when the grid is entered -/

variable (m : (ℓ : Loc nD τ sig) → Buf (Elt Ideal) ℓ)

/-- The flattened input, as the host operations' term. -/
theorem V_v1_eq (c : Dev nD) : @Eq (FVec Ideal S512x8192 .bf16) (V m c main_v1)
    (truncf (F := Ideal) (s := S512x8192) (φ := .f32) .bf16
      (shapeCast S512x8192 (m ((c : Thread nD τ).loc main_arg0)) shapeCasts_S2x256x8192_S512x8192) bitsLt_bf16_f32) := by
  show StableHlo.after hostOps0 (fun b => m (c, b)) (Proc.devRef .tc main_v1) = _
  after_results
  rfl

/-- The left factor, as the host operations' term. -/
theorem V_v3_eq (c : Dev nD) : @Eq (FVec Ideal S8192x1024 .bf16) (V m c main_v3)
    (truncf (F := Ideal) (s := S8192x1024) (φ := .f32) .bf16 (m ((c : Thread nD τ).loc main_arg2)) bitsLt_bf16_f32) := by
  show StableHlo.after hostOps0 (fun b => m (c, b)) (Proc.devRef .tc main_v3) = _
  after_results

/-- The projection, as the host operations' term. -/
theorem V_v8_eq (c : Dev nD) : @Eq (FVec Ideal S512x1024 .bf16) (V m c main_v8)
    (truncf (F := Ideal) (s := S512x1024) (φ := .f32) .bf16
      (mulf
        (Host.dotGeneral (F := Ideal) dot_S512x8192_S8192x1024_S512x1024_1_0_0_1_n_n none
          (truncf (F := Ideal) (s := S512x8192) (φ := .f32) .bf16
            (shapeCast S512x8192 (m ((c : Thread nD τ).loc main_arg0)) shapeCasts_S2x256x8192_S512x8192) bitsLt_bf16_f32)
          (truncf (F := Ideal) (s := S8192x1024) (φ := .f32) .bf16 (m ((c : Thread nD τ).loc main_arg4)) bitsLt_bf16_f32))
        (broadcastInDim S512x1024 ![0, 1] bcast_S1x1024_S512x1024_0_1
          (broadcastInDim S1x1024 ![1] bcast_S1024_S1x1024_1 (m ((c : Thread nD τ).loc main_arg3)))))
      bitsLt_bf16_f32) := by
  show StableHlo.after hostOps0 (fun b => m (c, b)) (Proc.devRef .tc main_v8) = _
  after_results
  rfl

/-- The flattened input at (m, i) is x at row (m / 256, m % 256), column i. -/
theorem V_v1_apply (c : Dev nD) (mm : Fin 512) (i : Fin 8192) :
    (V m c main_v1 : S512x8192.Idx → EReal) (ix2 mm i) = LowRank.flat (m ((c : Thread nD τ).loc main_arg0)) mm i :=
  (congrFun (V_v1_eq m c) (ix2 mm i)).trans (reshape_apply _ mm i)

/-- The left factor is the argument's. -/
theorem V_v3_apply (c : Dev nD) (o : Fin 8192) (r : Fin 1024) :
    (V m c main_v3 : S8192x1024.Idx → EReal) (ix2 o r) = m ((c : Thread nD τ).loc main_arg2) (ix2 o r) :=
  congrFun (V_v3_eq m c) (ix2 o r)

/-- The projection at (m, r) is t(m, r). -/
theorem V_v8_apply (c : Dev nD) (mm : Fin 512) (r : Fin 1024) :
    (V m c main_v8 : S512x1024.Idx → EReal) (ix2 mm r)
      = LowRank.tVal (m ((c : Thread nD τ).loc main_arg0)) (m ((c : Thread nD τ).loc main_arg3))
          (m ((c : Thread nD τ).loc main_arg4)) mm r := by
  refine (congrFun (V_v8_eq m c) (ix2 mm r)).trans ?_
  unfold LowRank.tVal
  refine (mulf_apply _ _ (ix2 mm r)).trans ?_
  refine congrArg₂ (· * ·) ?_ (bcast_apply _ mm r)
  refine (dot_apply _ _ mm r).trans ?_
  refine Finset.sum_congr rfl fun i _ => ?_
  exact congrArg (· * _) (reshape_apply _ mm i)

end Cert.KernelIdeal.HostPrefix

end
-- ==== Proof.Accum.lean ====
/-
  The output tile of the kernel in closed form, at the exact reals.

  Fix a core and an output tile a (columns 1024·a + oo of the result). Step j of the tile adds to the accumulator, at
  (m, oo), the sum over k < 512 of x(m, 512·j + k) · base(1024·a + oo, 512·j + k): chunk j of the dot product of row m
  of the flattened input with row 1024·a + oo of the base weight. So after step j the accumulator holds chunks 0 … j,
  by induction on j; and the last step's output tile adds the sum over r of t(m, r) · U(1024·a + oo, r), where t is the
  projected input the host part computed.
-/
import proofs.«128202_j43052752175269_2_alg».proof.Proof.Steps
import proofs.«128202_j43052752175269_2_alg».proof.Proof.Blocks
import proofs.«128202_j43052752175269_2_alg».proof.Proof.Payload
import proofs.«128202_j43052752175269_2_alg».proof.Proof.HostPrefix
import proofs.«128202_j43052752175269_2_alg».proof.Proof.Spec

set_option maxRecDepth 16384

noncomputable section

open Idealize.ShloMosaic Idealize.ShloMosaic.TcCoe Idealize.SL.Sem
open Idealize.ShloMosaic.ValueIdx

namespace Cert.KernelIdeal.Accum
open Cert.KernelIdeal Cert.KernelIdeal.Gen Cert.KernelIdeal.Pieces Cert.KernelIdeal.Blocks Cert.KernelIdeal.Steps
open Cert.KernelIdeal.Payload Cert.KernelIdeal.HostPrefix LowRank

/-- Column 1024·a + oo of the result: column oo of output tile a. -/
def ocol (a : Fin 8) (oo : Fin 1024) : Fin 8192 :=
  ⟨a.val * 1024 + oo.val, by have := a.isLt; have := oo.isLt; omega⟩

/-- Column 512·j + k of the contraction: column k of chunk j. -/
def jcol (j : Fin 16) (k : Fin 512) : Fin 8192 :=
  ⟨j.val * 512 + k.val, by have := j.isLt; have := k.isLt; omega⟩

theorem col_eq (j : Fin 16) (k : Fin 512) : col j.val k = jcol j k :=
  Fin.ext (by show (j.val % 16) * 512 + k.val = j.val * 512 + k.val; rw [Nat.mod_eq_of_lt j.isLt])

/-- One accumulation step, over any blocks with the stated entries: the accumulator gains chunk j. -/
theorem step_of (X : SX.Idx → EReal) (B : SB.Idx → EReal) (a : Fin 8) (j : Fin 16)
    (xc : Vec Ideal S512x512 .bf16) (x1 : Vec Ideal S1024x512 .f32) (prev : Vec Ideal S512x1024 .f32)
    (h0 : ∀ (mm : Fin 512) (k : Fin 512), xc (ix2 mm k) = flat X mm (jcol j k))
    (h1 : ∀ (oo : Fin 1024) (k : Fin 512), x1 (ix2 oo k) = B (ix2 (ocol a oo) (jcol j k)))
    (mm : Fin 512) (oo : Fin 1024) :
    k0_pay2 xc x1 prev (ix2 mm oo) = prev (ix2 mm oo) + chunk X B j.val mm (ocol a oo) := by
  rw [pay2_apply]
  unfold chunk
  exact congrArg (prev (ix2 mm oo) + ·) (Finset.sum_congr rfl fun k _ => by rw [h0, h1, col_eq])

/-- The last step's output, over any blocks with the stated entries: the accumulator plus the low-rank term. -/
theorem last_of (X : SX.Idx → EReal) (S : SS.Idx → EReal) (V U : SU.Idx → EReal) (a : Fin 8)
    (x3 : Vec Ideal S512x1024 .bf16) (x2 : Vec Ideal S1024x1024 .bf16) (acc : Vec Ideal S512x1024 .f32)
    (h3 : ∀ (mm : Fin 512) (r : Fin 1024), x3 (ix2 mm r) = tVal X S V mm r)
    (h2 : ∀ (oo : Fin 1024) (r : Fin 1024), x2 (ix2 oo r) = U (ix2 (ocol a oo) r))
    (mm : Fin 512) (oo : Fin 1024) :
    k0_pay3 x3 x2 acc (ix2 mm oo) = acc (ix2 mm oo) + ∑ r : Fin 1024, tVal X S V mm r * U (ix2 (ocol a oo) r) := by
  rw [pay3_apply]
  exact congrArg (acc (ix2 mm oo) + ·) (Finset.sum_congr rfl fun r _ => by rw [h3, h2])

variable (m : (ℓ : Loc nD τ sig) → Buf (Elt Ideal) ℓ)

/-- The five argument arrays as core c holds them at launch. -/
abbrev aX (c : Dev nD) : SX.Idx → EReal := m ((c : Thread nD τ).loc main_arg0)
abbrev aB (c : Dev nD) : SB.Idx → EReal := m ((c : Thread nD τ).loc main_arg1)
abbrev aU (c : Dev nD) : SU.Idx → EReal := m ((c : Thread nD τ).loc main_arg2)
abbrev aS (c : Dev nD) : SS.Idx → EReal := m ((c : Thread nD τ).loc main_arg3)
abbrev aV (c : Dev nD) : SU.Idx → EReal := m ((c : Thread nD τ).loc main_arg4)

/-- At point 16·a + j the body's load of the resident input reads columns 512·j + k of the flattened input. -/
theorem hx (c : Dev nD) (t : Fin cfg0.N) (a : Fin 8) (j : Fin 16) (ht : t.val = 16 * a.val + j.val)
    (mm : Fin 512) (k : Fin 512) :
    xchunk (grid0.coords t) (iblk m c 0 t) (ix2 mm k) = flat (aX m c) mm (jcol j k) :=
  (xchunk_apply t a j ht (iblk m c 0 t) mm k).trans ((iblk0_apply m c t mm (jcol j k)).trans (V_v1_apply m c mm (jcol j k)))

/-- At point 16·a + j the base-weight window reads rows 1024·a + oo and columns 512·j + k of base. -/
theorem hb (c : Dev nD) (t : Fin cfg0.N) (a : Fin 8) (j : Fin 16) (ht : t.val = 16 * a.val + j.val)
    (oo : Fin 1024) (k : Fin 512) :
    (iblk m c 1 t : Vec Ideal S1024x512 .f32) (ix2 oo k) = aB m c (ix2 (ocol a oo) (jcol j k)) :=
  (iblk1_apply m c t a j ht oo k).trans (congrFun (V_main_arg1 m c) _)

/-- The projected input's window reads t(m, r). -/
theorem ht3 (c : Dev nD) (t : Fin cfg0.N) (mm : Fin 512) (r : Fin 1024) :
    (iblk m c 3 t : Vec Ideal S512x1024 .bf16) (ix2 mm r) = tVal (aX m c) (aS m c) (aV m c) mm r :=
  (iblk3_apply m c t mm r).trans (V_v8_apply m c mm r)

/-- At point 16·a + j the U window reads rows 1024·a + oo of U. -/
theorem hu (c : Dev nD) (t : Fin cfg0.N) (a : Fin 8) (j : Fin 16) (ht : t.val = 16 * a.val + j.val)
    (oo : Fin 1024) (r : Fin 1024) :
    (iblk m c 2 t : Vec Ideal S1024x1024 .bf16) (ix2 oo r) = aU m c (ix2 (ocol a oo) r) :=
  (iblk2_apply m c t a j ht oo r).trans (V_v3_apply m c (ocol a oo) r)

/-- THE ACCUMULATOR after step j of tile a holds chunks 0 … j, by induction on j. -/
theorem acc_closed (c : Dev nD) (a : Fin 8) : ∀ (j : ℕ) (hj : j < 16) (h : 16 * a.val + j < cfg0.N) (mm : Fin 512) (oo : Fin 1024),
    (outsAt0 m c (16 * a.val + j) h).2 (ix2 mm oo)
      = ∑ s ∈ Finset.range (j + 1), chunk (aX m c) (aB m c) s mm (ocol a oo)
  | 0, hj, h, mm, oo => by
    have e := scratch_first m c ⟨16 * a.val + 0, h⟩ (by show (16 * a.val + 0) % 16 = 0; omega)
    rw [show (outsAt0 m c (16 * a.val + 0) h).2 = _ from e]
    refine (step_of (aX m c) (aB m c) a ⟨0, by decide⟩ _ _ _
      (hx m c ⟨16 * a.val + 0, h⟩ a ⟨0, by decide⟩ rfl) (hb m c ⟨16 * a.val + 0, h⟩ a ⟨0, by decide⟩ rfl) mm oo).trans ?_
    rw [pay1_apply, zero_add, Finset.sum_range_one]
  | j + 1, hj, h, mm, oo => by
    have e := scratch_step m c ⟨16 * a.val + (j + 1), h⟩ (by show ¬(16 * a.val + (j + 1)) % 16 = 0; omega)
    rw [show (outsAt0 m c (16 * a.val + (j + 1)) h).2 = _ from e]
    refine (step_of (aX m c) (aB m c) a ⟨j + 1, hj⟩ _ _ _
      (hx m c ⟨16 * a.val + (j + 1), h⟩ a ⟨j + 1, hj⟩ rfl) (hb m c ⟨16 * a.val + (j + 1), h⟩ a ⟨j + 1, hj⟩ rfl) mm oo).trans ?_
    rw [Finset.sum_range_succ _ (j + 1)]
    refine congrArg (· + chunk (aX m c) (aB m c) (j + 1) mm (ocol a oo)) ?_
    rw [outsAt_congr m c (16 * a.val + (j + 1) - 1) (16 * a.val + j) _ (Nat.lt_of_succ_lt h) (by omega)]
    exact acc_closed c a j (Nat.lt_of_succ_lt hj) (Nat.lt_of_succ_lt h) mm oo

/-- THE OUTPUT TILE the last step of tile a stores: the kernel's closed form at (m, 1024·a + oo). -/
theorem out_closed (c : Dev nD) (t : Fin cfg0.N) (a : Fin 8) (ht : t.val = 16 * a.val + 15) (mm : Fin 512) (oo : Fin 1024) :
    (outsAt0 m c t.val t.isLt).1 (ix2 mm oo)
      = kerVal (aX m c) (aB m c) (aU m c) (aS m c) (aV m c) mm (ocol a oo) := by
  rw [out_last m c t (by omega)]
  refine (last_of (aX m c) (aS m c) (aV m c) (aU m c) a _ _ _ (ht3 m c t) (hu m c t a ⟨15, by decide⟩ ht) mm oo).trans ?_
  unfold kerVal
  refine congrArg (· + ∑ r : Fin 1024, tVal (aX m c) (aS m c) (aV m c) mm r * aU m c (ix2 (ocol a oo) r)) ?_
  rw [outsAt_congr m c t.val (16 * a.val + 15) t.isLt (by rw [← ht]; exact t.isLt) ht]
  exact acc_closed m c a 15 (by decide) _ mm oo

end Cert.KernelIdeal.Accum
end
-- ==== Proof.LibReshape.lean ====
/-
  Merging two leading axes of an array into one, and splitting one leading axis into two, read at an index.

  A reshape keeps the row-major position of every element. In an [a, b, n] array the element (p, q, i) sits at
  position (p·b + q)·n + i, and in an [a·b, n] array the element (m, i) sits at position m·n + i; so row b·p + q of
  the merged array is the row (p, q) of the three-axis array, and conversely.
-/
import Idealize.ShloMosaic.Lib.Pipeline.Value
import Idealize.ShloMosaic.Lib.ValueIdx

namespace LibReshape

open Idealize.ShloMosaic Idealize.ShloMosaic.ValueIdx

/-- An [a, b, n] array viewed as [a·b, n]: row b·p + q of the view is the row (p, q) of the array. -/
theorem merge_apply {α : Type} (a b n : ℕ) (v : (⟨3, ![a, b, n]⟩ : Shape).Idx → α)
    (h : (⟨3, ![a, b, n]⟩ : Shape).ShapeCasts ⟨2, ![a * b, n]⟩) (p : Fin a) (q : Fin b) (i : Fin n)
    (hm : b * p.val + q.val < a * b) :
    shapeCast (⟨2, ![a * b, n]⟩ : Shape) v h (ix2 ⟨b * p.val + q.val, hm⟩ i) = v (ix3 p q i) :=
  shapeCast_apply v h _ _ (by
    rw [Shape.rowMajor_val_three, Shape.rowMajor_val_two]
    show (p.val * b + q.val) * n + i.val = (b * p.val + q.val) * n + i.val
    rw [Nat.mul_comm b p.val])

/-- An [a·b, n] array viewed as [a, b, n]: the row (p, q) of the view is row b·p + q of the array. -/
theorem split_apply {α : Type} (a b n : ℕ) (v : (⟨2, ![a * b, n]⟩ : Shape).Idx → α)
    (h : (⟨2, ![a * b, n]⟩ : Shape).ShapeCasts ⟨3, ![a, b, n]⟩) (p : Fin a) (q : Fin b) (i : Fin n)
    (hm : b * p.val + q.val < a * b) :
    shapeCast (⟨3, ![a, b, n]⟩ : Shape) v h (ix3 p q i) = v (ix2 ⟨b * p.val + q.val, hm⟩ i) :=
  shapeCast_apply v h _ _ (by
    rw [Shape.rowMajor_val_two, Shape.rowMajor_val_three]
    show (b * p.val + q.val) * n + i.val = (p.val * b + q.val) * n + i.val
    rw [Nat.mul_comm b p.val])

/-- A [512, 8192] array viewed as [2, 256, 8192]: the row (b, s) of the view is row 256·b + s of the array. -/
theorem split_512 {α : Type} (v : (⟨2, ![512, 8192]⟩ : Shape).Idx → α)
    (h : (⟨2, ![512, 8192]⟩ : Shape).ShapeCasts ⟨3, ![2, 256, 8192]⟩) (b : Fin 2) (s : Fin 256) (o : Fin 8192) :
    shapeCast (⟨3, ![2, 256, 8192]⟩ : Shape) v h (ix3 b s o)
      = v (ix2 (⟨256 * b.val + s.val, by have := b.isLt; have := s.isLt; omega⟩ : Fin 512) o) :=
  shapeCast_apply v h _ _ (by
    rw [Shape.rowMajor_val_two, Shape.rowMajor_val_three]
    show (256 * b.val + s.val) * 8192 + o.val = (b.val * 256 + s.val) * 8192 + o.val
    omega)

/-- A [2, 256, 8192] array viewed as [512, 8192]: row m of the view is the row (m / 256, m mod 256) of the array. -/
theorem merge_512 {α : Type} (v : (⟨3, ![2, 256, 8192]⟩ : Shape).Idx → α)
    (h : (⟨3, ![2, 256, 8192]⟩ : Shape).ShapeCasts ⟨2, ![512, 8192]⟩) (m : Fin 512) (i : Fin 8192) :
    shapeCast (⟨2, ![512, 8192]⟩ : Shape) v h (ix2 m i)
      = v (ix3 (⟨m.val / 256, by have := m.isLt; omega⟩ : Fin 2)
          (⟨m.val % 256, Nat.mod_lt _ (by decide)⟩ : Fin 256) i) :=
  shapeCast_apply v h _ _ (by
    rw [Shape.rowMajor_val_three, Shape.rowMajor_val_two]
    show (m.val / 256 * 256 + m.val % 256) * 8192 + i.val = m.val * 8192 + i.val
    omega)

end LibReshape
-- ==== Proof.Cover.lean ====
/-
  The output array after the grid, and after the host line that follows it.

  * The output window's block at grid point t is the 512 × 1024 tile of columns 1024·(t / 16) … 1024·(t / 16) + 1023,
    and it is written back at the points t ≡ 15 (mod 16). Every entry (m, o) of the [512, 8192] output therefore lies
    in a block that is written back: the one at t = 16·(o / 1024) + 15.
  * The one host line after the grid reshapes [512, 8192] to [2, 256, 8192]: entry (b, s, o) of the result is entry
    (256·b + s, o) of the output array.
-/
import proofs.«128202_j43052752175269_2_alg».proof.Proof.Gen.KernelIdeal.Frame
import proofs.«128202_j43052752175269_2_alg».proof.Proof.Blocks
import proofs.«128202_j43052752175269_2_alg».proof.Proof.LibReshape
import proofs.«128202_j43052752175269_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Cover

open Cert.KernelIdeal Cert.KernelIdeal.Gen
open Idealize.ShloMosaic Idealize.ShloMosaic.TcCoe Idealize.ShloMosaic.Tactic Idealize.SL.Sem
open Idealize.ShloMosaic.StableHlo Idealize.ShloMosaic.ValueIdx

variable {F : FTy → Type} [FloatOps F]

/-! ## The output window's blocks cover the output array -/

/-- An entry of the output array is in point t's block iff each coordinate is in the block's range on its axis. -/
theorem mem_blk (t : Fin cfg0.N) (i : S512x8192.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v9).slice (win0_4.rect t)).set ↔ _
  rw [View.set_slice_whole, Rect.mem_set_unit]
  exact Iff.rfl

/-- Every entry (m, o) of the output array lies in a block that is written back: the block of the last step of the
    tile o / 1024, point 16·(o / 1024) + 15. -/
theorem cover (i : S512x8192.Idx) : ∃ t : Fin cfg0.N, (cfg0.win 4).flush t = true ∧ i ∈ ((cfg0.win 4).blk t).view.set := by
  have hi0 : (i 0).val < 512 := (i 0).isLt
  have hi1 : (i 1).val < 8192 := (i 1).isLt
  have hN : cfg0.N = 128 := N_0
  obtain ⟨t, ht⟩ : ∃ t : Fin cfg0.N, t.val = 16 * ((i 1).val / 1024) + 15 := ⟨⟨16 * ((i 1).val / 1024) + 15, by omega⟩, rfl⟩
  obtain ⟨-, -, -, -, -, -, -, -, e40, e41, -⟩ := Cert.KernelIdeal.Blocks.idx_facts t
  refine ⟨t, (flush0_4 t).mpr (by omega), ?_⟩
  rw [mem_blk]
  intro a
  match a with
  | ⟨0, _⟩ =>
    show win0_4.index t (0 : Fin 2) * 512 ≤ (i 0).val ∧ (i 0).val < win0_4.index t (0 : Fin 2) * 512 + 512
    rw [e40]; omega
  | ⟨1, _⟩ =>
    show win0_4.index t (1 : Fin 2) * 1024 ≤ (i 1).val ∧ (i 1).val < win0_4.index t (1 : Fin 2) * 1024 + 1024
    rw [e41]; omega

/-! ## The host line after the grid -/

/-- The result of the program, whatever the grid leaves in the output array: entry (b, s, o) is the output
    array's entry (256·b + s, o). -/
theorem tail_v10 (m : (ℓ : Loc nD τ sig) → Buf (Elt F) ℓ)
    (dats : (p : Fin 1) → (c : Dev nD) → Pipeline.Dat τ (Elt F) Unit ℕ (UR sig nD τ) ℕ (cfgs p) c) (c : Dev nD)
    (G : S512x8192.Idx → Elt F .f32) (hfinal : (dats 0 c).arrAt 4 cfg0.N = G) :
    Pipeline.afterTail₀ cfgs dats 0 (V0 m) [hostOps1] c main_v10
      = fun j : S2x256x8192.Idx => G (ix2 (LowRank.row (j 0) (j 1)) (j 2)) := by
  have hw : Pipeline.withArrays (cfgs 0).spec c (V0 m c) (fun w => (dats 0 c).arrAt w (cfgs 0).N) (Proc.devRef .tc main_v9) = G :=
    (Pipeline.withArrays_arr spec0 launch0.win.arr_inj c _ _ 4).trans hfinal
  unfold Pipeline.afterTail₀
  show StableHlo.after hostOps1 _ (Proc.devRef .tc main_v10) = _
  after_results
  funext j
  obtain ⟨b, s, o, rfl⟩ : ∃ (b : Fin 2) (s : Fin 256) (o : Fin 8192), j = ix3 b s o := ⟨j 0, j 1, j 2, eq_ix3 j⟩
  show shapeCast S2x256x8192 (Pipeline.withArrays (cfgs 0).spec c (V0 m c) (fun w => (dats 0 c).arrAt w (cfgs 0).N)
      (Proc.devRef .tc main_v9)) shapeCasts_S512x8192_S2x256x8192 (ix3 b s o) = G (ix2 (LowRank.row b s) o)
  refine (LibReshape.split_512 _ _ b s o).trans ?_
  exact congrFun hw _

end Cert.KernelIdeal.Cover

end
-- ==== Proof.Final.lean ====
/-
  The kernel's result array.

  Only the last step of each output tile writes its block back, and block a of the [512, 8192] result is columns
  1024·a … 1024·a + 1023. What that step stores at (m, oo) is the kernel's closed form at (m, 1024·a + oo), so every
  block is a block of ONE whole-array function, the eight blocks cover the array, and the array ends holding that
  function. The host line after the region only views the [512, 8192] array as [2, 256, 8192]: entry (b, s, o) is
  entry (256·b + s, o).
-/
import proofs.«128202_j43052752175269_2_alg».proof.Proof.Accum
import proofs.«128202_j43052752175269_2_alg».proof.Proof.Cover

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Final
open Cert.KernelIdeal Cert.KernelIdeal.Gen Cert.KernelIdeal.Blocks Cert.KernelIdeal.Accum Cert.KernelIdeal.Cover LowRank

variable (m : (ℓ : Loc nD τ sig) → Buf (Elt Ideal) ℓ) (ρ : Dev nD → PrngReg)

/-- The region's result array [512, 8192] as one function of the argument arrays. -/
def G (c : Dev nD) : S512x8192.Idx → EReal :=
  fun i => kerVal (aX m c) (aB m c) (aU m c) (aS m c) (aV m c) (i 0) (i 1)

/-- What a writing-back point stores is its block of `G`. -/
theorem flushed_eq (c : Dev nD) (t : Fin cfg0.N) (hf : (cfg0.win 4).flush t = true) :
    (dats m 0 c).flushed 4 t = ((cfg0.win 4).blk t).view.read (Elt Ideal) (G m c) := by
  have h15 : t.val % 16 = 15 := (flush0_4 t).mp hf
  have hN : t.val < 128 := lt_of_lt_of_eq t.isLt (show cfg0.N = 128 from N_0)
  obtain ⟨-, -, -, -, -, -, -, -, e40, e41, -⟩ := idx_facts t
  show (cfg0.win 4).cut (grid0.coords t) ((dats m 0 c).after 4 t) = _
  rw [after0_4]
  refine funext fun (y : S512x1024.Idx) => ?_
  obtain ⟨mm, oo, rfl⟩ : ∃ (mm : Fin 512) (oo : Fin 1024), y = ix2 mm oo := ⟨y 0, y 1, eq_ix2 y⟩
  show (outsAt0 m c t.val t.isLt).1 (ix2 mm oo) = G m c (((cfg0.win 4).blk t).view.emb (ix2 mm oo))
  rw [out_closed m c t ⟨t.val / 16, by omega⟩ (by show t.val = 16 * (t.val / 16) + 15; omega) mm oo]
  unfold G
  have e0 : (((cfg0.win 4).blk t).view.emb (ix2 mm oo) 0 : Fin 512) = mm := Fin.ext (by
    show win0_4.index t (0 : Fin 2) * 512 + 1 * mm.val = mm.val; rw [e40]; omega)
  have e1 : (((cfg0.win 4).blk t).view.emb (ix2 mm oo) 1 : Fin 8192) = ocol ⟨t.val / 16, by omega⟩ oo := Fin.ext (by
    show win0_4.index t (1 : Fin 2) * 1024 + 1 * oo.val = t.val / 16 * 1024 + oo.val; rw [e41]; omega)
  exact (congrArg₂ (kerVal (aX m c) (aB m c) (aU m c) (aS m c) (aV m c)) e0 e1).symm

/-- The region's result array ends holding `G`. -/
theorem final (c : Dev nD) : (dats m 0 c).arrAt 4 cfg0.N = G m c :=
  (dats m 0 c).arrAt_eq_of_cover 4 (G m c) (flushed_eq m c) cover

/-- THE RUN, read: the result at the kernel's closed form, the arguments unchanged. -/
theorem run : θ_run defs (onTc (τ := τ) (main (F := Ideal))) ⟨m, fun _ => 0, ρ⟩ (fun r => ∀ c : Dev nD,
      r.2.mem ((c.tc : Thread nD τ).loc main_v10)
        = kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans
        ((tail_v10 m (dats m) c (G m c) (final m c)).trans rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final
end
-- ==== Proof.lean ====
/-
  The kernel  y = x · baseᵀ + ((x · V) ⊙ S) · Uᵀ  against the reference  y = x · (base + (U ⊙ S) · Vᵀ)ᵀ, over the
  extended reals, for finite inputs x [2, 256, 8192], base [8192, 8192], U [8192, 1024], S [1024], V [8192, 1024].

  Entry (b, s, o) of the reference is  Σ_i x(b,s,i) · (base(o,i) + Σ_r (U(o,r) · S(r)) · V(i,r)).
  The kernel flattens the rows, m = 256·b + s, takes on the host  t(m,r) = (Σ_i x(m,i) · V(i,r)) · S(r),  and then,
  output tile by output tile, sums x(m,·) · base(o,·) in sixteen consecutive chunks of 512 columns into an accumulator
  that starts from zero, adding  Σ_r t(m,r) · U(o,r)  at the last chunk. The sixteen chunks are the whole sum over the
  8192 columns; distributing x(m,i) over the bracket and exchanging the sums over i and r turns the reference's entry
  into the kernel's. Both steps are laws of the real numbers, not of the extended reals (they fail at infinities), so
  the precondition is used: every input entry is a real number, and the identity is proved in the reals and carried
  back through the coercion.

  Where each step lives: Spec (the two formulas), LibLowRank and SpecLaw (the identity), Finite (every entry real),
  RefValue (the reference computes its formula), Payload, HostPrefix, Pieces, Blocks, Steps, Accum (the kernel's output
  tile in closed form), Cover, LibReshape and Final (the tiles cover the result; its view as [2, 256, 8192]), Assembly
  (the five conjuncts from the kernel's run).
-/
import proofs.«128202_j43052752175269_2_alg».proof.Defs
import proofs.«128202_j43052752175269_2_alg».proof.Proof.Assembly
import proofs.«128202_j43052752175269_2_alg».proof.Proof.Final

noncomputable section

namespace Cert.Proof

/-- Every conjunct of the certificate: the three frames are the generated ones, the idealization rewrote nothing, and
    the two idealized programs end with the same result because the kernel's run ends at the kernel's closed form,
    which for real inputs is the reference's. -/
theorem claim : Cert.Claim :=
  Cert.Proof.Assembly.claim_of (fun m ρ => Cert.KernelIdeal.Final.run m ρ)

end Cert.Proof

end
